-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S1024x1024 : Shape := ⟨2, ![1024, 1024]⟩
abbrev S4096x64 : Shape := ⟨2, ![4096, 64]⟩
abbrev S64x1024 : Shape := ⟨2, ![64, 1024]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x64 : S_.BroadcastsInDim S4096x64 (![] : Fin 0 → Fin S4096x64.rank)
  reducesTo_S4096x64_S_d0_1 : S4096x64.ReducesTo [0, 1] S_
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S4096x64 .f32) (main_arg5 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S2x2048x4096 .f32) (main_arg1 : FVec F S1024x1024 .f32) (main_arg2 : FVec F S4096x64 .f32) (main_arg3 : FVec F S64x1024 .f32) (main_arg4 : FVec F S4096x64 .f32) (main_arg5 : FVec F S64x1024 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_v13 main_v16
-- ==== Kernel.lean ====
abbrev S2x2048x4096 : Shape := ⟨3, ![2, 2048, 4096]⟩
abbrev S1024x1024 : Shape := ⟨2, ![1024, 1024]⟩
abbrev S4096x64 : Shape := ⟨2, ![4096, 64]⟩
abbrev S64x1024 : Shape := ⟨2, ![64, 1024]⟩
abbrev S4096x4096 : Shape := ⟨2, ![4096, 4096]⟩
abbrev S4096x1024 : Shape := ⟨2, ![4096, 1024]⟩
abbrev S1024x4096 : Shape := ⟨2, ![1024, 4096]⟩
abbrev S256x4096 : Shape := ⟨2, ![256, 4096]⟩
abbrev S256x1024 : Shape := ⟨2, ![256, 1024]⟩

abbrev nBuf : Space → Nat
  | .hbm => 16
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S1024x1024, .f32⟩
  | .hbm, ⟨2, _⟩ => ⟨S4096x64, .f32⟩
  | .hbm, ⟨3, _⟩ => ⟨S64x1024, .f32⟩
  | .hbm, ⟨4, _⟩ => ⟨S4096x64, .f32⟩
  | .hbm, ⟨5, _⟩ => ⟨S64x1024, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x1024, .f32⟩
  | .hbm, ⟨10, _⟩ => ⟨S4096x4096, .bf16⟩
  | .hbm, ⟨11, _⟩ => ⟨S4096x1024, .bf16⟩
  | .hbm, ⟨12, _⟩ => ⟨S1024x1024, .bf16⟩
  | .hbm, ⟨13, _⟩ => ⟨S1024x4096, .bf16⟩
  | .hbm, ⟨14, _⟩ => ⟨S4096x4096, .f32⟩
  | .hbm, ⟨15, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S1024x1024, .bf16⟩
  | .local _ .vmem, ⟨4, _⟩ => ⟨S1024x4096, .bf16⟩
  | .local _ .vmem, ⟨5, _⟩ => ⟨S256x4096, .f32⟩
  | .local _ .vmem, ⟨6, _⟩ => ⟨S256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x2048x4096_S4096x4096 : S2x2048x4096.ShapeCasts S4096x4096
  transposes_S1024x1024_S1024x1024_1_0 : S1024x1024.Transposes [1, 0] S1024x1024
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S4096x4096_S2x2048x4096 : S4096x4096.ShapeCasts S2x2048x4096
  dot_S4096x64_S64x1024_S4096x1024_1_0_0_1_n_n_wf : DotDims.WF S4096x64 S64x1024 S4096x1024 [1] [0] [0] [1] [] []
  dot_S64x1024_S4096x64_S1024x4096_0_1_1_0_n_n_wf : DotDims.WF S64x1024 S4096x64 S1024x4096 [0] [1] [1] [0] [] []
  dot_S256x4096_S4096x1024_S256x1024_1_0_0_1_n_n_wf : DotDims.WF S256x4096 S4096x1024 S256x1024 [1] [0] [0] [1] [] []
  dot_S256x1024_S1024x1024_S256x1024_1_0_0_1_n_n_wf : DotDims.WF S256x1024 S1024x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S64x1024_S4096x64_S1024x4096_0_1_1_0_n_n : DotDims S64x1024 S4096x64 S1024x4096 where
  lhsContracting := [0]
  rhsContracting := [1]
  lhsNonContracting := [1]
  rhsNonContracting := [0]
  lhsBatch := []
  rhsBatch := []
  wf := dot_S64x1024_S4096x64_S1024x4096_0_1_1_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v4) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S1024x1024 : Shape := ⟨2, ![1024, 1024]⟩
abbrev S4096x64 : Shape := ⟨2, ![4096, 64]⟩
abbrev S64x1024 : Shape := ⟨2, ![64, 1024]⟩
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1024x1024, .f32⟩
  | .hbm, ⟨2, _⟩ => ⟨S4096x64, .f32⟩
  | .hbm, ⟨3, _⟩ => ⟨S64x1024, .f32⟩
  | .hbm, ⟨4, _⟩ => ⟨S4096x64, .f32⟩
  | .hbm, ⟨5, _⟩ => ⟨S64x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x4096, .f32⟩
  | .hbm, ⟨10, _⟩ => ⟨S4096x4096, .f32⟩
  | .hbm, ⟨11, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  transposes_S4096x1024_S1024x4096_1_0 : S4096x1024.Transposes [1, 0] S1024x4096
  dot_S4096x64_S64x1024_S4096x1024_1_0_0_1_n_n_wf : DotDims.WF S4096x64 S64x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S2x2048x4096_S4096x4096_S2x2048x4096_2_1_01_0_n_n_wf : DotDims.WF S2x2048x4096 S4096x4096 S2x2048x4096 [2] [1] [0, 1] [0] [] []

variable [Facts₀]

def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  The mathematics of the chained projection, with no program in sight.

  The kernel multiplies a row tile of the input by three resident matrices in turn,
      out = ((x · P) · Wt) · Qt ,
  where P = A_in · B_in, Wt is the transpose of the small weight and Qt[s, o] = Σ_r B_out[r, s] · A_out[o, r].
  One row of the result depends on one row of x only: row m of the result at column o is
      Σ_s ( Σ_j ( Σ_i x[m, i] · P[i, j] ) · Wt[j, s] ) · Qt[s, o] .
  `chainRow` is that number as a function of the row and the three matrices; `chainArr` is the whole
  4096 × 4096 array, row by row.
-/
import Idealize.ShloMosaic.PureOps.Ideal
import Idealize.ShloMosaic.Lib.ValueIdx

noncomputable section

namespace Cert.Chain

open Idealize.ShloMosaic Idealize.ShloMosaic.ValueIdx

/-- Column `o` of the row `xrow · P · Wt · Qt`, bracketed from the left as the kernel computes it. -/
def chainRow (xrow : Fin 4096 → EReal) (P : (⟨2, ![4096, 1024]⟩ : Shape).Idx → EReal)
    (Wt : (⟨2, ![1024, 1024]⟩ : Shape).Idx → EReal) (Qt : (⟨2, ![1024, 4096]⟩ : Shape).Idx → EReal) (o : Fin 4096) : EReal :=
  ∑ s : Fin 1024, (∑ j : Fin 1024, (∑ i : Fin 4096, xrow i * P (ix2 i j)) * Wt (ix2 j s)) * Qt (ix2 s o)

/-- The whole product `X · P · Wt · Qt` of a 4096 × 4096 matrix `X`, entry by entry: entry (m, o) is column `o` of
    row `m` of `X` pushed through the chain. -/
def chainArr (X : (⟨2, ![4096, 4096]⟩ : Shape).Idx → EReal) (P : (⟨2, ![4096, 1024]⟩ : Shape).Idx → EReal)
    (Wt : (⟨2, ![1024, 1024]⟩ : Shape).Idx → EReal) (Qt : (⟨2, ![1024, 4096]⟩ : Shape).Idx → EReal) :
    (⟨2, ![4096, 4096]⟩ : Shape).Idx → EReal :=
  fun j => chainRow (fun i => X (ix2 (⟨(j 0).val, idx2_lt0 j⟩ : Fin 4096) i)) P Wt Qt ⟨(j 1).val, idx2_lt1 j⟩

/-- `chainArr` at the index with literal coordinates `(a, o)`. -/
theorem chainArr_ix2 (X : (⟨2, ![4096, 4096]⟩ : Shape).Idx → EReal) (P : (⟨2, ![4096, 1024]⟩ : Shape).Idx → EReal)
    (Wt : (⟨2, ![1024, 1024]⟩ : Shape).Idx → EReal) (Qt : (⟨2, ![1024, 4096]⟩ : Shape).Idx → EReal) (a o : Fin 4096) :
    chainArr X P Wt Qt (ix2 a o) = chainRow (fun i => X (ix2 a i)) P Wt Qt o := rfl

end Cert.Chain

end
-- ==== Proof.Payload.lean ====
/-
  What the kernel body stores, read at one index.

  The body loads a 256 × 4096 tile of the input and the three resident matrices whole, and stores
  three matrix products chained through zero accumulators (the changes of float format between them are the
  identity on extended reals). Each product, read at an index, is the sum over the contracted coordinate of the
  products of the entries; so the stored tile at row `p`, column `q` is the chain applied to row `p` of the input tile.
-/
import proofs.«142860_j27384711479892_2_alg».proof.Proof.Gen.KernelIdeal.Skeleton
import proofs.«142860_j27384711479892_2_alg».proof.Proof.Spec
import Idealize.ShloMosaic.Lib.StackMember
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Chain

/-- The dimension numbers of the body's three products are those of the plain product of an M × K by a K × N
    matrix. -/
theorem dims1 : dot_S256x4096_S4096x1024_S256x1024_1_0_0_1_n_n = DotDims.plain 256 4096 1024 := rfl
theorem dims2 : dot_S256x1024_S1024x1024_S256x1024_1_0_0_1_n_n = DotDims.plain 256 1024 1024 := rfl
theorem dims3 : dot_S256x1024_S1024x4096_S256x4096_1_0_0_1_n_n = DotDims.plain 256 1024 4096 := rfl

/-- A plain product into a zero accumulator, at an index, is the sum over the contracted coordinate: the accumulator's
    zero word is the real zero, and what is left is the host product's own sum. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  refine (Ideal.matmul_constant_zero_apply (DotDims.plain M K N) prec A B (ix2 a b)).trans ?_
  refine ((Ideal.dotGeneral_apply (DotDims.plain M K N) prec default A B (ix2 a b)).symm).trans ?_
  exact StackMember.dotGeneral_plain_apply prec A B a b

/-- THE STORED TILE AT AN INDEX: row `p`, column `q` of what the body stores is the chain applied to row `p` of the
    loaded input tile. -/
theorem pay_apply (x0 : FVec Ideal S256x4096 .bf16) (x1 : FVec Ideal S4096x1024 .bf16) (x2 : FVec Ideal S1024x1024 .bf16)
    (x3 : FVec Ideal S1024x4096 .bf16) (p : Fin 256) (q : Fin 4096) :
    k0_pay1 (F := Ideal) x0 x1 x2 x3 (ix2 p q) = chainRow (fun i => x0 (ix2 p i)) x1 x2 x3 q := by
  unfold k0_pay1 chainRow
  simp only [shapeCast_self, dims1, dims2, dims3]
  rw [matmul_plain_zero_apply]
  refine Finset.sum_congr rfl fun s _ => ?_
  rw [truncf_apply, matmul_plain_zero_apply]
  refine congrArg (· * x3 (ix2 s q)) (Finset.sum_congr rfl fun j _ => ?_)
  rw [truncf_apply, matmul_plain_zero_apply]

end Cert.KernelIdeal.Body

end
-- ==== Proof.Blocks.lean ====
/-
  From the grid's sixteen row tiles to the whole output array.

  Point `t` of the grid reads rows 256·t … 256·t + 255 of the merged input and the three resident matrices whole, and
  writes back rows 256·t … 256·t + 255 of the output. Since one output row depends on one input row only, what
  point `t` writes back is exactly tile `t` of ONE whole-array function: the chain applied row by row (`chainArr`)
  to the four arrays the region finds. The sixteen tiles cover the 4096 rows (row `r` lies in tile `r / 256`), so the
  output array ends holding that function.
-/
import proofs.«142860_j27384711479892_2_alg».proof.Proof.Gen.KernelIdeal.Frame
import proofs.«142860_j27384711479892_2_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Chain
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided once over the sixteen points: the input tile and the output tile sit at block row
    `t`, block column 0; the three resident matrices sit at block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks at a point -/

/-- A resident matrix's block is the whole matrix, at every point. -/
theorem blk1 (c : Dev nD) (t : Fin cfg0.N) : (iblk m c 1 t : FVec Ideal S4096x1024 .bf16) = V m c main_v5 := by
  funext y
  show V m c main_v5 (((cfg0.win 1).blk t).view.emb y) = V m c main_v5 y
  refine congrArg _ (funext fun a => Fin.ext ?_)
  obtain ⟨-, -, e0, e1, -⟩ := idx_facts t
  match a with
  | ⟨0, _⟩ => show win0_1.index t (0 : Fin 2) * 4096 + 1 * (y 0).val = (y 0).val; omega
  | ⟨1, _⟩ => show win0_1.index t (1 : Fin 2) * 1024 + 1 * (y 1).val = (y 1).val; omega

theorem blk2 (c : Dev nD) (t : Fin cfg0.N) : (iblk m c 2 t : FVec Ideal S1024x1024 .bf16) = V m c main_v6 := by
  funext y
  show V m c main_v6 (((cfg0.win 2).blk t).view.emb y) = V m c main_v6 y
  refine congrArg _ (funext fun a => Fin.ext ?_)
  obtain ⟨-, -, -, -, e0, e1, -⟩ := idx_facts t
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem blk3 (c : Dev nD) (t : Fin cfg0.N) : (iblk m c 3 t : FVec Ideal S1024x4096 .bf16) = V m c main_v7 := by
  funext y
  show V m c main_v7 (((cfg0.win 3).blk t).view.emb y) = V m c main_v7 y
  refine congrArg _ (funext fun a => Fin.ext ?_)
  obtain ⟨-, -, -, -, -, -, e0, e1, -⟩ := idx_facts t
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Row `p` of the input tile at point `t` is row `256·t + p` of the merged input. -/
theorem blk0_apply (c : Dev nD) (t : Fin cfg0.N) (p : Fin 256) (i : Fin 4096) (hM : t.val * 256 + p.val < 4096) :
    (iblk m c 0 t : FVec Ideal S256x4096 .bf16) (ix2 p i) = V m c main_v4 (ix2 (⟨t.val * 256 + p.val, hM⟩ : Fin 4096) i) := by
  show V m c main_v4 (((cfg0.win 0).blk t).view.emb (ix2 p i)) = _
  refine congrArg _ (funext fun a => Fin.ext ?_)
  obtain ⟨e0, e1, -⟩ := idx_facts t
  match a with
  | ⟨0, _⟩ => show win0_0.index t (0 : Fin 2) * 256 + 1 * p.val = t.val * 256 + p.val; omega
  | ⟨1, _⟩ => show win0_0.index t (1 : Fin 2) * 4096 + 1 * i.val = i.val; omega

/-- An entry of the output tile at point `t` sits in the array at row `256·t + p`, column `q`. -/
theorem emb4 (t : Fin cfg0.N) (p : Fin 256) (q : Fin 4096) (hM : t.val * 256 + p.val < 4096) :
    ((cfg0.win 4).blk t).view.emb (ix2 p q) = ix2 (⟨t.val * 256 + p.val, hM⟩ : Fin 4096) q := by
  refine funext fun a => Fin.ext ?_
  obtain ⟨-, -, -, -, -, -, -, -, e0, e1⟩ := idx_facts t
  match a with
  | ⟨0, _⟩ => show win0_4.index t (0 : Fin 2) * 256 + 1 * p.val = t.val * 256 + p.val; omega
  | ⟨1, _⟩ => show win0_4.index t (1 : Fin 2) * 4096 + 1 * q.val = q.val; omega

/-! ## What a point writes back -/

/-- WHAT POINT `t` WRITES BACK is tile `t` of the chain applied row by row to the four arrays the region finds. -/
theorem flushed4_eq (c : Dev nD) (t : Fin cfg0.N) :
    (dats m 0 c).flushed 4 t
      = ((cfg0.win 4).blk t).view.read (Elt Ideal) (chainArr (V m c main_v4) (V m c main_v5) (V m c main_v6) (V m c main_v7)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S4096x1024) hz,
    View.ld_unit_zero (S := S1024x1024) hz, View.ld_unit_zero (S := S1024x4096) hz]
  funext y
  obtain ⟨p, q, rfl⟩ : ∃ (p : Fin 256) (q : Fin 4096), y = ix2 p q := ⟨y 0, y 1, eq_ix2 y⟩
  have ht : t.val < 16 := by have h := t.isLt; have hN : cfg0.N = 16 := N_0; omega
  have hM : t.val * 256 + p.val < 4096 := by have := p.isLt; omega
  show k0_pay1 (F := Ideal) (iblk m c 0 t) (iblk m c 1 t) (iblk m c 2 t) (iblk m c 3 t) (ix2 p q)
    = chainArr (V m c main_v4) (V m c main_v5) (V m c main_v6) (V m c main_v7) (((cfg0.win 4).blk t).view.emb (ix2 p q))
  refine (Body.pay_apply (iblk m c 0 t) (iblk m c 1 t) (iblk m c 2 t) (iblk m c 3 t) p q).trans ?_
  rw [emb4 t p q hM, chainArr_ix2, blk1, blk2, blk3]
  exact congrArg (fun xr => chainRow xr (V m c main_v5) (V m c main_v6) (V m c main_v7) q)
    (funext fun i => blk0_apply m c t p i hM)

/-! ## The cover -/

/-- An index of the array is in point `t`'s block iff each coordinate is in the block's range on its axis. -/
theorem mem_blk4 (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v8).slice (win0_4.rect t)).set ↔ _
  rw [View.set_slice_whole, Rect.mem_set_unit]
  exact Iff.rfl

/-- Every entry of the output array lies in some point's tile: row `r` in tile `r / 256`. -/
theorem cover4 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have ht : (i 0).val / 256 < cfg0.N := by rw [show cfg0.N = 16 from N_0]; omega
  refine ⟨⟨(i 0).val / 256, ht⟩, flush0_4 _, ?_⟩
  rw [mem_blk4]
  obtain ⟨-, -, -, -, -, -, -, -, e0, e1⟩ := idx_facts ⟨(i 0).val / 256, ht⟩
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, ht⟩ (1 : Fin 2) * 4096 ≤ (i 1).val ∧ (i 1).val < win0_4.index ⟨(i 0).val / 256, ht⟩ (1 : Fin 2) * 4096 + 4096
    rw [e1]; omega

/-! ## The output array after the region -/

/-- THE OUTPUT ARRAY after all sixteen write-backs: the chain applied row by row to the four arrays the region
    finds. -/
theorem final4 (c : Dev nD) :
    (dats m 0 c).arrAt 4 cfg0.N = chainArr (V m c main_v4) (V m c main_v5) (V m c main_v6) (V m c main_v7) :=
  (dats m 0 c).arrAt_eq_of_cover 4 _ (fun t _ => flushed4_eq m c t) cover4

end Cert.KernelIdeal.Blocks

end
-- ==== Proof.HostPrefix.lean ====
/-
  What the region finds in its four input arrays, entry by entry.

  Before the region the host lays the operands out: the input with its two leading axes merged into 4096 rows;
  P = A_in · B_in; the small weight transposed; and Qt, the product B_out-transposed · A_out-transposed, taken
  directly as one contraction over the rank axis. Each is then narrowed to a 16-bit float format, which on extended
  reals changes nothing. Read at an index:
      X[b·2048 + s, i] = x[b, s, i],   P[i, j] = Σ_r A_in[i, r] · B_in[r, j],
      Wt[j, s] = W[s, j],              Qt[s, o] = Σ_r B_out[r, s] · A_out[o, r].
-/
import proofs.«142860_j27384711479892_2_alg».proof.Proof.Gen.KernelIdeal.Frame
import Idealize.ShloMosaic.Lib.StackMember
import Idealize.ShloMosaic.Lib.Pipeline.Value
import Idealize.ShloMosaic.Lib.StableHlo.Run
import Idealize.ShloMosaic.PureOps.Ideal.Laws

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The six arguments on core `c`, as arrays of extended reals -/

abbrev argX (c : Dev nD) : FVec Ideal S2x2048x4096 .f32 := m ((c : Thread nD τ).loc main_arg0)
abbrev argW (c : Dev nD) : FVec Ideal S1024x1024 .f32 := m ((c : Thread nD τ).loc main_arg1)
abbrev argAout (c : Dev nD) : FVec Ideal S4096x64 .f32 := m ((c : Thread nD τ).loc main_arg2)
abbrev argBout (c : Dev nD) : FVec Ideal S64x1024 .f32 := m ((c : Thread nD τ).loc main_arg3)
abbrev argAin (c : Dev nD) : FVec Ideal S4096x64 .f32 := m ((c : Thread nD τ).loc main_arg4)
abbrev argBin (c : Dev nD) : FVec Ideal S64x1024 .f32 := m ((c : Thread nD τ).loc main_arg5)

/-! ## The four arrays as whole-array terms of the arguments -/

theorem V_x (c : Dev nD) : (V m c main_v4 : FVec Ideal S4096x4096 .bf16)
    = truncf (F := Ideal) .bf16 (shapeCast S4096x4096 (argX m c) shapeCasts_S2x2048x4096_S4096x4096) bitsLt_bf16_f32 := by
  show StableHlo.after hostOps0 (fun b => m (c, b)) (Proc.devRef .tc main_v4) = _
  after_results <;> rfl

theorem V_p (c : Dev nD) : (V m c main_v5 : FVec Ideal S4096x1024 .bf16)
    = truncf (F := Ideal) .bf16 (Host.dotGeneral (F := Ideal) dot_S4096x64_S64x1024_S4096x1024_1_0_0_1_n_n (some .fp32) (argAin m c) (argBin m c)) bitsLt_bf16_f32 := by
  show StableHlo.after hostOps0 (fun b => m (c, b)) (Proc.devRef .tc main_v5) = _
  after_results <;> rfl

theorem V_wt (c : Dev nD) : (V m c main_v6 : FVec Ideal S1024x1024 .bf16)
    = truncf (F := Ideal) .bf16 (transpose S1024x1024 [1, 0] (argW m c) transposes_S1024x1024_S1024x1024_1_0) bitsLt_bf16_f32 := by
  show StableHlo.after hostOps0 (fun b => m (c, b)) (Proc.devRef .tc main_v6) = _
  after_results <;> rfl

theorem V_qt (c : Dev nD) : (V m c main_v7 : FVec Ideal S1024x4096 .bf16)
    = truncf (F := Ideal) .bf16 (Host.dotGeneral (F := Ideal) dot_S64x1024_S4096x64_S1024x4096_0_1_1_0_n_n (some .fp32) (argBout m c) (argAout m c)) bitsLt_bf16_f32 := by
  show StableHlo.after hostOps0 (fun b => m (c, b)) (Proc.devRef .tc main_v7) = _
  after_results <;> rfl

/-! ## Each operation read at an index -/

/-- Merging the two leading axes: row `b·2048 + s` of the merged array is row `(b, s)` of the input (the two have
    the same row-major position). -/
theorem merge_apply (a0 : S2x2048x4096.Idx → EReal) (b : Fin 2) (s : Fin 2048) (i : Fin 4096) (hM : b.val * 2048 + s.val < 4096) :
    shapeCast S4096x4096 a0 shapeCasts_S2x2048x4096_S4096x4096 (ix2 (⟨b.val * 2048 + s.val, hM⟩ : Fin 4096) i) = a0 (ix3 b s i) := by
  refine shapeCast_apply a0 shapeCasts_S2x2048x4096_S4096x4096 _ (ix3 b s i) ?_
  rw [Shape.rowMajor_val_three, Shape.rowMajor_val_two]
  rfl

theorem dimsP : dot_S4096x64_S64x1024_S4096x1024_1_0_0_1_n_n = DotDims.plain 4096 64 1024 := rfl

/-- P = A_in · B_in at an index. -/
theorem p_apply (a4 : FVec Ideal S4096x64 .f32) (a5 : FVec Ideal S64x1024 .f32) (i : Fin 4096) (j : Fin 1024) :
    Host.dotGeneral (F := Ideal) dot_S4096x64_S64x1024_S4096x1024_1_0_0_1_n_n (some .fp32) a4 a5 (ix2 i j) = ∑ r : Fin 64, a4 (ix2 i r) * a5 (ix2 r j) := by
  rw [dimsP]
  exact StackMember.dotGeneral_plain_apply (some .fp32) a4 a5 i j

/-- The transposed small weight at an index. -/
theorem wt_apply (a1 : S1024x1024.Idx → EReal) (j s : Fin 1024) :
    transpose S1024x1024 [1, 0] a1 transposes_S1024x1024_S1024x1024_1_0 (ix2 j s) = a1 (ix2 s j) :=
  transpose_apply [1, 0] a1 transposes_S1024x1024_S1024x1024_1_0 (ix2 j s) (ix2 s j) (fun b => match b with
    | ⟨0, _⟩ => rfl
    | ⟨1, _⟩ => rfl)

/-! The contraction that builds Qt runs over the FIRST axis of B_out and the LAST axis of A_out; the result's axes
    are B_out's remaining axis, then A_out's. Axis by axis: -/

theorem qt_lhs_0 (i : S1024x4096.Idx) (q : dot_S64x1024_S4096x64_S1024x4096_0_1_1_0_n_n.contr.Idx) :
    (dot_S64x1024_S4096x64_S1024x4096_0_1_1_0_n_n.lhsIdx i q 0).val = (q ⟨0, by decide⟩).val :=
  dot_S64x1024_S4096x64_S1024x4096_0_1_1_0_n_n.lhsIdx_val_of_single rfl i q
theorem qt_lhs_1 (i : S1024x4096.Idx) (q : dot_S64x1024_S4096x64_S1024x4096_0_1_1_0_n_n.contr.Idx) :
    (dot_S64x1024_S4096x64_S1024x4096_0_1_1_0_n_n.lhsIdx i q 1).val = (i 0).val := by
  unfold DotDims.lhsIdx
  rw [dif_neg (show ¬(1 : Fin S64x1024.rank) ∈ dot_S64x1024_S4096x64_S1024x4096_0_1_1_0_n_n.lhsBatch by decide), dif_pos (show (1 : Fin S64x1024.rank) ∈ dot_S64x1024_S4096x64_S1024x4096_0_1_1_0_n_n.lhsNonContracting by decide)]
  rfl
theorem qt_rhs_0 (i : S1024x4096.Idx) (q : dot_S64x1024_S4096x64_S1024x4096_0_1_1_0_n_n.contr.Idx) :
    (dot_S64x1024_S4096x64_S1024x4096_0_1_1_0_n_n.rhsIdx i q 0).val = (i 1).val := by
  unfold DotDims.rhsIdx
  rw [dif_neg (show ¬(0 : Fin S4096x64.rank) ∈ dot_S64x1024_S4096x64_S1024x4096_0_1_1_0_n_n.rhsBatch by decide), dif_pos (show (0 : Fin S4096x64.rank) ∈ dot_S64x1024_S4096x64_S1024x4096_0_1_1_0_n_n.rhsNonContracting by decide)]
  rfl
theorem qt_rhs_1 (i : S1024x4096.Idx) (q : dot_S64x1024_S4096x64_S1024x4096_0_1_1_0_n_n.contr.Idx) :
    (dot_S64x1024_S4096x64_S1024x4096_0_1_1_0_n_n.rhsIdx i q 1).val = (q ⟨0, by decide⟩).val :=
  dot_S64x1024_S4096x64_S1024x4096_0_1_1_0_n_n.rhsIdx_val_of_single rfl i q

/-- Qt at an index. -/
theorem qt_apply (a3 : FVec Ideal S64x1024 .f32) (a2 : FVec Ideal S4096x64 .f32) (s : Fin 1024) (o : Fin 4096) :
    Host.dotGeneral (F := Ideal) dot_S64x1024_S4096x64_S1024x4096_0_1_1_0_n_n (some .fp32) a3 a2 (ix2 s o) = ∑ r : Fin 64, a3 (ix2 r s) * a2 (ix2 o r) := by
  simp only [Host.dotGeneral]
  rw [Ideal.dotGeneral_apply, ← Equiv.sum_comp (contrEquiv1 dot_S64x1024_S4096x64_S1024x4096_0_1_1_0_n_n 64 rfl rfl).symm]
  refine Finset.sum_congr rfl fun k _ => ?_
  have hk := contrEquiv1_symm_val dot_S64x1024_S4096x64_S1024x4096_0_1_1_0_n_n 64 rfl rfl k
  have el : dot_S64x1024_S4096x64_S1024x4096_0_1_1_0_n_n.lhsIdx (ix2 s o) ((contrEquiv1 dot_S64x1024_S4096x64_S1024x4096_0_1_1_0_n_n 64 rfl rfl).symm k) = ix2 k s := funext fun a => Fin.ext (by
    match a with
    | ⟨0, _⟩ => exact (qt_lhs_0 _ _).trans hk
    | ⟨1, _⟩ => exact qt_lhs_1 _ _)
  have er : dot_S64x1024_S4096x64_S1024x4096_0_1_1_0_n_n.rhsIdx (ix2 s o) ((contrEquiv1 dot_S64x1024_S4096x64_S1024x4096_0_1_1_0_n_n 64 rfl rfl).symm k) = ix2 o k := funext fun a => Fin.ext (by
    match a with
    | ⟨0, _⟩ => exact qt_rhs_0 _ _
    | ⟨1, _⟩ => exact (qt_rhs_1 _ _).trans hk)
  rw [el, er]

/-! ## The four arrays at an index -/

theorem V_x_apply (c : Dev nD) (b : Fin 2) (s : Fin 2048) (i : Fin 4096) (hM : b.val * 2048 + s.val < 4096) :
    (V m c main_v4 : FVec Ideal S4096x4096 .bf16) (ix2 (⟨b.val * 2048 + s.val, hM⟩ : Fin 4096) i) = argX m c (ix3 b s i) := by
  rw [V_x, truncf_apply]
  exact merge_apply _ b s i hM

theorem V_p_apply (c : Dev nD) (i : Fin 4096) (j : Fin 1024) :
    (V m c main_v5 : FVec Ideal S4096x1024 .bf16) (ix2 i j) = ∑ r : Fin 64, argAin m c (ix2 i r) * argBin m c (ix2 r j) := by
  rw [V_p, truncf_apply]
  exact p_apply _ _ i j

theorem V_wt_apply (c : Dev nD) (j s : Fin 1024) :
    (V m c main_v6 : FVec Ideal S1024x1024 .bf16) (ix2 j s) = argW m c (ix2 s j) := by
  rw [V_wt, truncf_apply]
  exact wt_apply _ j s

theorem V_qt_apply (c : Dev nD) (s : Fin 1024) (o : Fin 4096) :
    (V m c main_v7 : FVec Ideal S1024x4096 .bf16) (ix2 s o) = ∑ r : Fin 64, argBout m c (ix2 r s) * argAout m c (ix2 o r) := by
  rw [V_qt, truncf_apply]
  exact qt_apply _ _ s o

end Cert.KernelIdeal.Prefix

end
-- ==== Proof.KernelValue.lean ====
/-
  The kernel's result, entry by entry, as a function of the six arguments.

  After the region the host splits the output's 4096 rows back into 2 × 2048: result[b, s, o] is the output array's
  entry at row b·2048 + s, column o (the same row-major position). With the output array known as the chain applied
  row by row to the four arrays the region found, and those arrays known entry by entry from the arguments, the
  kernel's result at (b, s, o) is
      Σ_s2 ( Σ_j ( Σ_i x[b,s,i] · (Σ_r A_in[i,r]·B_in[r,j]) ) · W[s2,j] ) · ( Σ_r B_out[r,s2]·A_out[o,r] ).
-/
import proofs.«142860_j27384711479892_2_alg».proof.Proof.Blocks
import proofs.«142860_j27384711479892_2_alg».proof.Proof.HostPrefix
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Chain Cert.KernelIdeal.Prefix

variable (m : (ℓ : Loc nD τ sig) → Buf (Elt Ideal) ℓ) (ρ : Dev nD → PrngReg)

/-- The kernel's result on core `c`: the output array with its rows split back into (b, s). -/
def kernelOut (c : Dev nD) : FVec Ideal S2x2048x4096 .f32 :=
  shapeCast S2x2048x4096 (chainArr (V m c main_v4) (V m c main_v5) (V m c main_v6) (V m c main_v7)) shapeCasts_S4096x4096_S2x2048x4096

/-- What the host line after the region leaves in the result buffer. -/
theorem tail_eq (c : Dev nD) : Pipeline.afterTail₀ cfgs (dats m) 0 (V0 m) [hostOps1] c main_v9 = kernelOut m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = chainArr (V m c main_v4) (V m c main_v5) (V m c main_v6) (V m c main_v7) :=
    (Pipeline.withArrays_arr spec0 launch0.win.arr_inj c (V0 m c) (fun w => (dats m 0 c).arrAt w cfg0.N) 4).trans (Blocks.final4 m c)
  refine funext fun i => ?_
  show shapeCast S2x2048x4096 (Pipeline.withArrays (cfgs 0).spec c (V0 m c) (fun w => (dats m 0 c).arrAt w (cfgs 0).N) (Proc.devRef .tc main_v8))
    shapeCasts_S4096x4096_S2x2048x4096 i = kernelOut m c i
  rw [hw]
  rfl

/-- THE KERNEL'S RESULT AT AN INDEX, as nested sums over the arguments' entries. -/
theorem kernelOut_apply (c : Dev nD) (b : Fin 2) (s : Fin 2048) (o : Fin 4096) :
    kernelOut m c (ix3 b s o)
      = ∑ s2 : Fin 1024, (∑ j : Fin 1024, (∑ i : Fin 4096, argX m c (ix3 b s i) * (∑ r : Fin 64, argAin m c (ix2 i r) * argBin m c (ix2 r j)))
          * argW m c (ix2 s2 j)) * (∑ r : Fin 64, argBout m c (ix2 r s2) * argAout m c (ix2 o r)) := by
  have hM : b.val * 2048 + s.val < 4096 := by have := b.isLt; have := s.isLt; omega
  unfold kernelOut
  rw [shapeCast_apply _ shapeCasts_S4096x4096_S2x2048x4096 (ix3 b s o) (ix2 (⟨b.val * 2048 + s.val, hM⟩ : Fin 4096) o)
    (by rw [Shape.rowMajor_val_two, Shape.rowMajor_val_three]; rfl)]
  rw [chainArr_ix2]
  simp only [chainRow]
  refine Finset.sum_congr rfl fun s2 _ => ?_
  rw [V_qt_apply]
  refine congrArg (· * _) (Finset.sum_congr rfl fun j _ => ?_)
  rw [V_wt_apply]
  refine congrArg (· * _) (Finset.sum_congr rfl fun i _ => ?_)
  rw [V_x_apply m c b s i hM, V_p_apply]

/-- THE KERNEL'S RUN: every weakly fair execution terminates with the result buffer at `kernelOut` and the six
    arguments unchanged. -/
theorem run : θ_run defs (onTc (τ := τ) (main (F := Ideal))) ⟨m, fun _ => 0, ρ⟩ fun r => ∀ c : Dev nD,
      r.2.mem ((c.tc : Thread nD τ).loc main_v9) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefSide.lean ====
/-
  The reference's result, entry by entry.

  The reference forms Q = A_out · B_out and P = A_in · B_in, then the large weight
  L[o, i] = Σ_j ( Σ_s Q[o, s] · W[s, j] ) · P[i, j], and contracts the input with it over its last axis:
      ref[b, s, o] = Σ_i x[b, s, i] · L[o, i].
  Each host product, read at an index, is the sum over its contracted coordinate; the transposition of P only
  swaps the two coordinates it is read at.
-/
import proofs.«142860_j27384711479892_2_alg».proof.Proof.Gen.ReferenceIdeal.Read

noncomputable section

namespace Cert.ReferenceIdeal.RefValue

open Cert.ReferenceIdeal Cert.ReferenceIdeal.Read Idealize.ShloMosaic Idealize.ShloMosaic.ValueIdx

/-- THE REFERENCE AT AN INDEX, as nested sums over the arguments' entries. -/
theorem ref_apply (a0 : FVec Ideal S2x2048x4096 .f32) (a1 : FVec Ideal S1024x1024 .f32) (a2 : FVec Ideal S4096x64 .f32)
    (a3 : FVec Ideal S64x1024 .f32) (a4 : FVec Ideal S4096x64 .f32) (a5 : FVec Ideal S64x1024 .f32)
    (b : Fin 2) (s : Fin 2048) (o : Fin 4096) :
    val_main_v5 (F := Ideal) a0 a1 a2 a3 a4 a5 (ix3 b s o)
      = ∑ i : Fin 4096, a0 (ix3 b s i) * (∑ j : Fin 1024, (∑ s2 : Fin 1024, (∑ r : Fin 64, a2 (ix2 o r) * a3 (ix2 r s2)) * a1 (ix2 s2 j))
          * (∑ r : Fin 64, a4 (ix2 i r) * a5 (ix2 r j))) := by
  rw [val_main_v5_apply]
  refine Finset.sum_congr rfl fun i _ => ?_
  have e1 : lidx_main_v5 (ix3 b s o) i = ix3 b s i := funext fun a => Fin.ext (by
    match a with
    | ⟨0, _⟩ => rfl
    | ⟨1, _⟩ => rfl
    | ⟨2, _⟩ => rfl)
  have e2 : ridx_main_v5 (ix3 b s o) i = ix2 o i := funext fun a => Fin.ext (by
    match a with
    | ⟨0, _⟩ => rfl
    | ⟨1, _⟩ => rfl)
  rw [e1, e2, val_main_v4_apply]
  refine congrArg (a0 (ix3 b s i) * ·) (Finset.sum_congr rfl fun j _ => ?_)
  have e3 : lidx_main_v4 (ix2 o i) j = ix2 o j := funext fun a => Fin.ext (by
    match a with
    | ⟨0, _⟩ => rfl
    | ⟨1, _⟩ => rfl)
  have e4 : ridx_main_v4 (ix2 o i) j = ix2 j i := funext fun a => Fin.ext (by
    match a with
    | ⟨0, _⟩ => rfl
    | ⟨1, _⟩ => rfl)
  rw [e3, e4, val_main_v2_apply, val_main_v3_apply]
  have e5 : idx_main_v3 (ix2 j i) = ix2 i j := funext fun a => Fin.ext (by
    match a with
    | ⟨0, _⟩ => rfl
    | ⟨1, _⟩ => rfl)
  rw [e5, val_main_v1_apply]
  have hQW : (∑ k : Fin 1024, val_main_v0 (F := Ideal) a2 a3 (lidx_main_v2 (ix2 o j) k) * a1 (ridx_main_v2 (ix2 o j) k))
      = ∑ s2 : Fin 1024, (∑ r : Fin 64, a2 (ix2 o r) * a3 (ix2 r s2)) * a1 (ix2 s2 j) := by
    refine Finset.sum_congr rfl fun s2 _ => ?_
    have e6 : lidx_main_v2 (ix2 o j) s2 = ix2 o s2 := funext fun a => Fin.ext (by
      match a with
      | ⟨0, _⟩ => rfl
      | ⟨1, _⟩ => rfl)
    have e7 : ridx_main_v2 (ix2 o j) s2 = ix2 s2 j := funext fun a => Fin.ext (by
      match a with
      | ⟨0, _⟩ => rfl
      | ⟨1, _⟩ => rfl)
    rw [e6, e7, val_main_v0_apply]
    refine congrArg (· * a1 (ix2 s2 j)) (Finset.sum_congr rfl fun r _ => ?_)
    have e8 : lidx_main_v0 (ix2 o s2) r = ix2 o r := funext fun a => Fin.ext (by
      match a with
      | ⟨0, _⟩ => rfl
      | ⟨1, _⟩ => rfl)
    have e9 : ridx_main_v0 (ix2 o s2) r = ix2 r s2 := funext fun a => Fin.ext (by
      match a with
      | ⟨0, _⟩ => rfl
      | ⟨1, _⟩ => rfl)
    rw [e8, e9]
  have hP : (∑ k : Fin 64, a4 (lidx_main_v1 (ix2 i j) k) * a5 (ridx_main_v1 (ix2 i j) k))
      = ∑ r : Fin 64, a4 (ix2 i r) * a5 (ix2 r j) := by
    refine Finset.sum_congr rfl fun r _ => ?_
    have e10 : lidx_main_v1 (ix2 i j) r = ix2 i r := funext fun a => Fin.ext (by
      match a with
      | ⟨0, _⟩ => rfl
      | ⟨1, _⟩ => rfl)
    have e11 : ridx_main_v1 (ix2 i j) r = ix2 r j := funext fun a => Fin.ext (by
      match a with
      | ⟨0, _⟩ => rfl
      | ⟨1, _⟩ => rfl)
    rw [e10, e11]
  rw [hQW, hP]

end Cert.ReferenceIdeal.RefValue

end
-- ==== Proof.ChainLaw.lean ====
import Idealize.ShloMosaic.PureOps.Ideal

/-!
# Reassociating a chain of matrix products

A row vector `x` is pushed through three linear maps.  One side multiplies from
the left, `((x · P) · Wᵀ) · Qᵀ`; the other first collapses the three maps into
one, `x · ((Q · W) · Pᵀ)ᵀ`.  Over the real numbers the two are the same number:
both are the triple sum `∑ i j s, x i * P i j * W s j * Q s`, read in two
different orders, and a finite sum may be distributed over products and
reordered freely.

Over the extended reals `[-∞, +∞]` multiplication does not distribute over
addition in general (`⊤ + ⊥` is a convention, not a number), so the same law is
stated only for entries that are real numbers: a finite sum or product of
coercions of reals is the coercion of the real sum or product, and the law is
inherited from the reals.

Here `P = A_in · B_in` and `Q = A_out · B_out` are themselves products through a
finite "rank" index, which changes nothing: their entries are again reals.
-/

open scoped BigOperators

namespace Cert.ChainLaw

/-- The coercion `ℝ → [-∞, +∞]` commutes with finite sums: the extended-real sum
of finitely many real numbers is the real sum. (It is additive and sends `0` to
`0`; induct on the index set.) -/
theorem coe_sum {K : Type*} (s : Finset K) (f : K → ℝ) :
    ((∑ k ∈ s, f k : ℝ) : EReal) = ∑ k ∈ s, (f k : EReal) := by
  classical
  induction s using Finset.induction_on with
  | empty => simp
  | insert a s ha ih =>
    rw [Finset.sum_insert ha, Finset.sum_insert ha, EReal.coe_add, ih]

/-- The chain law over the reals.  Both sides equal the triple sum
`∑ i j s, x i * P i j * W s j * Q s`: the left side is `((x · P) · Wᵀ) · Q` with the
sums nested as `s, j, i`, the right side is `x · ((Q · W) · Pᵀ)ᵀ` with the sums
nested as `i, j, s`.  Distribute, swap the order of summation, regroup. -/
theorem chain_real {I J S : Type*} [Fintype I] [Fintype J] [Fintype S]
    (x : I → ℝ) (P : I → J → ℝ) (W : S → J → ℝ) (Q : S → ℝ) :
    (∑ s, (∑ j, (∑ i, x i * P i j) * W s j) * Q s)
      = ∑ i, x i * (∑ j, (∑ s, Q s * W s j) * P i j) := by
  calc (∑ s, (∑ j, (∑ i, x i * P i j) * W s j) * Q s)
      = ∑ s, ∑ j, ∑ i, x i * (Q s * W s j * P i j) := by
        refine Finset.sum_congr rfl fun s _ => ?_
        rw [Finset.sum_mul]
        refine Finset.sum_congr rfl fun j _ => ?_
        rw [Finset.sum_mul, Finset.sum_mul]
        refine Finset.sum_congr rfl fun i _ => ?_
        ring
    _ = ∑ s, ∑ i, ∑ j, x i * (Q s * W s j * P i j) :=
        Finset.sum_congr rfl fun s _ => Finset.sum_comm
    _ = ∑ i, ∑ s, ∑ j, x i * (Q s * W s j * P i j) := Finset.sum_comm
    _ = ∑ i, ∑ j, ∑ s, x i * (Q s * W s j * P i j) :=
        Finset.sum_congr rfl fun i _ => Finset.sum_comm
    _ = ∑ i, x i * (∑ j, (∑ s, Q s * W s j) * P i j) := by
        refine Finset.sum_congr rfl fun i _ => ?_
        rw [Finset.mul_sum]
        refine Finset.sum_congr rfl fun j _ => ?_
        rw [Finset.sum_mul, Finset.mul_sum]

/-- The chain law over the extended reals, for real entries, with both outer
maps factored through a rank index: `P i j = ∑ r, A_in i r * B_in r j` and
`Q s = ∑ r, B_out r s * A_out r`.  Every sum and product in sight is a finite sum
or product of coercions of reals, hence itself the coercion of the corresponding
real expression; the two real expressions agree by `chain_real`, after
commuting the two factors inside the rank sum for `Q`. -/
theorem chain_assoc {I J S R R' : Type*}
    [Fintype I] [Fintype J] [Fintype S] [Fintype R] [Fintype R']
    (x : I → ℝ) (Ain : I → R → ℝ) (Bin : R → J → ℝ) (W : S → J → ℝ)
    (Aout : R' → ℝ) (Bout : R' → S → ℝ) :
    (∑ s, (∑ j, (∑ i, (x i : EReal) * (∑ r, (Ain i r : EReal) * (Bin r j : EReal)))
        * (W s j : EReal)) * (∑ r, (Bout r s : EReal) * (Aout r : EReal)))
      = ∑ i, (x i : EReal) * (∑ j, (∑ s, (∑ r, (Aout r : EReal) * (Bout r s : EReal))
        * (W s j : EReal)) * (∑ r, (Ain i r : EReal) * (Bin r j : EReal))) := by
  simp only [← EReal.coe_mul, ← coe_sum]
  congr 1
  have hQ : ∀ s, (∑ r, Aout r * Bout r s) = ∑ r, Bout r s * Aout r :=
    fun s => Finset.sum_congr rfl fun r _ => mul_comm _ _
  simp only [hQ]
  exact chain_real x (fun i j => ∑ r, Ain i r * Bin r j) W (fun s => ∑ r, Bout r s * Aout r)

end Cert.ChainLaw
-- ==== Proof.Bridge.lean ====
/-
  The two bracketings are one number, for real entries.

  The kernel's entry, with the host's layouts read back to the arguments, is
      Σ_s ( Σ_j ( Σ_i x[b,s,i] · (Σ_r A_in[i,r]·B_in[r,j]) ) · W[s,j] ) · ( Σ_r B_out[r,s]·A_out[o,r] ),
  the reference's is
      Σ_i x[b,s,i] · ( Σ_j ( Σ_s (Σ_r A_out[o,r]·B_out[r,s]) · W[s,j] ) · (Σ_r A_in[i,r]·B_in[r,j]) ).
  When every entry of every argument is a real number these agree: distributivity and the reordering of finite sums,
  which hold among reals and are inherited by their images in the extended reals.
-/
import proofs.«142860_j27384711479892_2_alg».proof.Proof.ChainLaw
import Idealize.ShloMosaic.Lib.ValueIdx

noncomputable section

namespace Cert.Chain

open Idealize.ShloMosaic Idealize.ShloMosaic.ValueIdx

/-- The kernel's bracketing equals the reference's, entry by entry, when all six arguments hold real numbers. -/
theorem kernel_eq_ref (a0 : (⟨3, ![2, 2048, 4096]⟩ : Shape).Idx → EReal) (a1 : (⟨2, ![1024, 1024]⟩ : Shape).Idx → EReal)
    (a2 : (⟨2, ![4096, 64]⟩ : Shape).Idx → EReal) (a3 : (⟨2, ![64, 1024]⟩ : Shape).Idx → EReal)
    (a4 : (⟨2, ![4096, 64]⟩ : Shape).Idx → EReal) (a5 : (⟨2, ![64, 1024]⟩ : Shape).Idx → EReal)
    (h0 : ∃ r : (⟨3, ![2, 2048, 4096]⟩ : Shape).Idx → ℝ, a0 = fun i => ((r i : ℝ) : EReal))
    (h1 : ∃ r : (⟨2, ![1024, 1024]⟩ : Shape).Idx → ℝ, a1 = fun i => ((r i : ℝ) : EReal))
    (h2 : ∃ r : (⟨2, ![4096, 64]⟩ : Shape).Idx → ℝ, a2 = fun i => ((r i : ℝ) : EReal))
    (h3 : ∃ r : (⟨2, ![64, 1024]⟩ : Shape).Idx → ℝ, a3 = fun i => ((r i : ℝ) : EReal))
    (h4 : ∃ r : (⟨2, ![4096, 64]⟩ : Shape).Idx → ℝ, a4 = fun i => ((r i : ℝ) : EReal))
    (h5 : ∃ r : (⟨2, ![64, 1024]⟩ : Shape).Idx → ℝ, a5 = fun i => ((r i : ℝ) : EReal))
    (b : Fin 2) (s : Fin 2048) (o : Fin 4096) :
    (∑ s2 : Fin 1024, (∑ j : Fin 1024, (∑ i : Fin 4096, a0 (ix3 b s i) * (∑ r : Fin 64, a4 (ix2 i r) * a5 (ix2 r j))) * a1 (ix2 s2 j))
        * (∑ r : Fin 64, a3 (ix2 r s2) * a2 (ix2 o r)))
      = ∑ i : Fin 4096, a0 (ix3 b s i) * (∑ j : Fin 1024, (∑ s2 : Fin 1024, (∑ r : Fin 64, a2 (ix2 o r) * a3 (ix2 r s2)) * a1 (ix2 s2 j))
          * (∑ r : Fin 64, a4 (ix2 i r) * a5 (ix2 r j))) := by
  obtain ⟨r0, rfl⟩ := h0
  obtain ⟨r1, rfl⟩ := h1
  obtain ⟨r2, rfl⟩ := h2
  obtain ⟨r3, rfl⟩ := h3
  obtain ⟨r4, rfl⟩ := h4
  obtain ⟨r5, rfl⟩ := h5
  exact Cert.ChainLaw.chain_assoc (fun i : Fin 4096 => r0 (ix3 b s i)) (fun (i : Fin 4096) (r : Fin 64) => r4 (ix2 i r))
    (fun (r : Fin 64) (j : Fin 1024) => r5 (ix2 r j)) (fun (s2 : Fin 1024) (j : Fin 1024) => r1 (ix2 s2 j))
    (fun r : Fin 64 => r2 (ix2 o r)) (fun (r : Fin 64) (s2 : Fin 1024) => r3 (ix2 r s2))

end Cert.Chain

end
-- ==== Proof.FiniteInputs.lean ====
/-
  The precondition of the certificate, read back: it makes every input entry a real number.

  The predicate is, for each of the six float arrays `a`, the conjunction over all entries `i` of
  `|a i| < +∞`, and then the conjunction of the six results. Read on the extended reals `[-∞, +∞]`, where
  `|x| = max x (-x)` exactly and `<` is the order, `|x| < +∞` excludes both `x = +∞` and `x = -∞`; what is
  left is the image of the real line. So a predicate that answers "true" says each array is, entry by entry,
  the coercion of an array of real numbers.
-/
import proofs.«142860_j27384711479892_2_alg».proof.Proof.Gen.Pre_finite_inputs
import Idealize.ShloMosaic.Lib.ReduceAll
import Idealize.ShloMosaic.PureOps.Ideal
import Idealize.ShloMosaic.Lib.ValueIdx

noncomputable section

namespace Cert.FiniteInputs

open Cert.Pre_finite_inputs Idealize.ShloMosaic

/-- The shape of rank zero has exactly one index: the empty tuple of coordinates. -/
instance subsingleton_scalar_idx : Subsingleton S_.Idx := ⟨fun a b => funext fun d => d.elim0⟩

/-- An extended real whose absolute value `max x (-x)` is strictly below `+∞` is neither `+∞` (then `|x| = +∞`)
    nor `-∞` (then `-x = +∞`, so again `|x| = +∞`): it is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The 32-bit pattern `0x7F800000` (sign 0, exponent all ones, significand 0) denotes `+∞`. -/
theorem ofBits_inf_f32 : Ideal.ofBits .f32 0x7F800000#32 = (⊤ : EReal) := by
  simp [Ideal.ofBits, Ideal.ieee]

/-- A truth value written as one bit is the bit 1 only when it is "true". -/
theorem bool_of_bit_eq_one {b : Bool} (h : BitVec.ofBool b = 1#1) : b = true := by
  revert h; cases b <;> decide

/-- One entry: if the comparison `|x| < +∞` (absolute value, then ordered less-than against the pattern of
    `+∞`) answers the bit 1, then `x` is a real number. -/
theorem exists_real_of_cmp (x : Ideal .f32)
    (h : FloatOps.cmpf (F := Ideal) .olt (FloatOps.hostAbsf x) (FloatOps.ofBits .f32 0x7F800000#32) = 1#1) :
    ∃ r : ℝ, x = (r : EReal) := by
  have h' : BitVec.ofBool (decide (max x (-x) < Ideal.ofBits .f32 0x7F800000#32)) = 1#1 := h
  rw [ofBits_inf_f32] at h'
  exact exists_real_of_abs_lt_top x (of_decide_eq_true (bool_of_bit_eq_one h'))

/-- One array, of any shape: if the conjunction over all entries of `|a i| < +∞` (a reduction by `and` over
    every axis, from the initial value "true", into a single bit) is 1, then every entry of `a` is a real
    number; choosing one real per entry, `a` is the coercion of a real array. -/
theorem exists_real_array {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1) :
    ∃ r : s.Idx → ℝ, a = fun i => ((r i : ℝ) : EReal) := by
  have hall : ∀ i : s.Idx, ∃ r : ℝ, a i = (r : EReal) := fun i =>
    exists_real_of_cmp (a i) (Host.reduce_andi_all _ _ hr hu ValueIdx.ix0 h i)
  choose r hr' using hall
  exact ⟨r, funext hr'⟩

/-- The whole precondition: if the predicate answers "true" on the six input arrays, then each of
    them is, entry by entry, the coercion of an array of real numbers (no entry is `+∞` or `-∞`). The
    predicate is the conjunction of six bits, one per array, each the all-entries conjunction of
    `|a i| < +∞`; a conjunction of bits is 1 only if each is, and each bit is read by `exists_real_array`. -/
theorem real_of_pre (a0 : FVec Ideal S2x2048x4096 .f32) (a1 : FVec Ideal S1024x1024 .f32)
    (a2 : FVec Ideal S4096x64 .f32) (a3 : FVec Ideal S64x1024 .f32)
    (a4 : FVec Ideal S4096x64 .f32) (a5 : FVec Ideal S64x1024 .f32)
    (h : Cert.Pre_finite_inputs.fn (F := Ideal) a0 a1 a2 a3 a4 a5 = fun _ => 1#1) :
    (∃ r : S2x2048x4096.Idx → ℝ, a0 = fun i => ((r i : ℝ) : EReal)) ∧
    (∃ r : S1024x1024.Idx → ℝ, a1 = fun i => ((r i : ℝ) : EReal)) ∧
    (∃ r : S4096x64.Idx → ℝ, a2 = fun i => ((r i : ℝ) : EReal)) ∧
    (∃ r : S64x1024.Idx → ℝ, a3 = fun i => ((r i : ℝ) : EReal)) ∧
    (∃ r : S4096x64.Idx → ℝ, a4 = fun i => ((r i : ℝ) : EReal)) ∧
    (∃ r : S64x1024.Idx → ℝ, a5 = fun i => ((r i : ℝ) : EReal)) := by
  have h0 := congrFun h ValueIdx.ix0
  unfold Cert.Pre_finite_inputs.fn Cert.Pre_finite_inputs.fn_part1 at h0
  dsimp only [andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨exists_real_array _ _ _ a0 h0', exists_real_array _ _ _ a1 h1, exists_real_array _ _ _ a2 h2,
    exists_real_array _ _ _ a3 h3, exists_real_array _ _ _ a4 h4, exists_real_array _ _ _ a5 h5⟩

end Cert.FiniteInputs

end
-- ==== Proof.lean ====
/-
  The chained low-rank projection against its materialised reference: the five claims.

  Both programs compute, for every (b, s, o),  Σ over (i, j, s2) of  x[b,s,i] · P[i,j] · W[s2,j] · Q[o,s2]  with
  P = A_in · B_in and Q = A_out · B_out. The kernel brackets it from the left, ((x · P) · Wᵀ) · Qᵀ, one tile of 256 rows
  per grid point; the reference forms the large weight (Q · W) · Pᵀ first and contracts x with it. On extended reals
  the changes of float format in the kernel are the identity and every matrix product is the exact sum over its
  contracted coordinate, so the two results are two orders of one finite triple sum. Reordering it uses
  distributivity, which holds among real numbers but not at the infinities: this is where the precondition (every
  input finite) is used.

  The kernel's side: the host's layouts before the region read at an index, the body's stored tile at an index, the
  sixteen tiles assembled into the output array, and the host's reshape after the region. The reference's side: its
  run, read one operation at a time. The law: the program-free rearrangement of the triple sum.
  Nothing was rewritten by the idealisation, so the preservation claim is trivially true.
-/
import proofs.«142860_j27384711479892_2_alg».proof.Defs
import proofs.«142860_j27384711479892_2_alg».proof.Proof.Gen.Kernel
import proofs.«142860_j27384711479892_2_alg».proof.Proof.Gen.Kernel.Skeleton
import proofs.«142860_j27384711479892_2_alg».proof.Proof.Gen.Kernel.Launch
import proofs.«142860_j27384711479892_2_alg».proof.Proof.Gen.Kernel.Points
import proofs.«142860_j27384711479892_2_alg».proof.Proof.Gen.Kernel.Frame
import proofs.«142860_j27384711479892_2_alg».proof.Proof.Gen.KernelIdeal
import proofs.«142860_j27384711479892_2_alg».proof.Proof.Gen.KernelIdeal.Skeleton
import proofs.«142860_j27384711479892_2_alg».proof.Proof.Gen.KernelIdeal.Launch
import proofs.«142860_j27384711479892_2_alg».proof.Proof.Gen.KernelIdeal.Points
import proofs.«142860_j27384711479892_2_alg».proof.Proof.Gen.KernelIdeal.Frame
import proofs.«142860_j27384711479892_2_alg».proof.Proof.Gen.ReferenceIdeal
import proofs.«142860_j27384711479892_2_alg».proof.Proof.Gen.ReferenceIdeal.Run
import proofs.«142860_j27384711479892_2_alg».proof.Proof.Gen.ReferenceIdeal.Read
import proofs.«142860_j27384711479892_2_alg».proof.Proof.Gen.Pre_finite_inputs
import proofs.«142860_j27384711479892_2_alg».proof.Proof.KernelValue
import proofs.«142860_j27384711479892_2_alg».proof.Proof.RefSide
import proofs.«142860_j27384711479892_2_alg».proof.Proof.Bridge
import proofs.«142860_j27384711479892_2_alg».proof.Proof.FiniteInputs
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the six arguments, all finite, both programs end with the same result: at every index
    the reference's nested sums are the kernel's, reordered. -/
theorem algebraic : Cert.algebraic_KernelIdeal_ReferenceIdeal := by
  intro m ρ m' ρ' hpre hagree
  refine ⟨Cert.KernelIdeal.Result.kernelOut m, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.FiniteInputs.real_of_pre _ _ _ _ _ _ (hpre c)
  rw [(hagree c).1, (hagree c).2.1, (hagree c).2.2.1, (hagree c).2.2.2.1, (hagree c).2.2.2.2.1, (hagree c).2.2.2.2.2,
    Cert.ReferenceIdeal.Read.val_main_v5_eq]
  funext idx
  obtain ⟨b, s, o, rfl⟩ : ∃ (b : Fin 2) (s : Fin 2048) (o : Fin 4096), idx = ix3 b s o := ⟨idx 0, idx 1, idx 2, eq_ix3 idx⟩
  show _ = Cert.KernelIdeal.Result.kernelOut m c (ix3 b s o)
  rw [Cert.ReferenceIdeal.RefValue.ref_apply, Cert.KernelIdeal.Result.kernelOut_apply]
  exact (Cert.Chain.kernel_eq_ref _ _ _ _ _ _ h0 h1 h2 h3 h4 h5 b s o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
